-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  main_v3
-- ==== Kernel.lean ====
abbrev S16384x4096 : Shape := ⟨2, ![16384, 4096]⟩
abbrev S512x4096 : Shape := ⟨2, ![512, 4096]⟩
abbrev S16x1024x4096 : Shape := ⟨3, ![16, 1024, 4096]⟩

abbrev nBuf : Space → Nat
  | .hbm => 3
  | .vmem => 4
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16x1024x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  shapeCasts_S16384x4096_S16x1024x4096 : S16384x4096.ShapeCasts S16x1024x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .f32 = 32 ∨ (Rect.block (s := S16384x4096) S512x4096.size (cc0_transform_1 i) (hinb0_1 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S16384x4096 : Shape := ⟨2, ![16384, 4096]⟩
abbrev S16 : Shape := ⟨1, ![16]⟩
abbrev S16x1024 : Shape := ⟨2, ![16, 1024]⟩
abbrev S16384 : Shape := ⟨1, ![16384]⟩
abbrev S_ : Shape := ⟨0, ![]⟩
abbrev S16384x1 : Shape := ⟨2, ![16384, 1]⟩
abbrev S16x1024x4096 : Shape := ⟨3, ![16, 1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16, .i32⟩
  | .hbm, ⟨2, _⟩ => ⟨S16x1024, .i32⟩
  | .hbm, ⟨3, _⟩ => ⟨S16384, .i32⟩
  | .hbm, ⟨4, _⟩ => ⟨S_, .f32⟩
  | .hbm, ⟨5, _⟩ => ⟨S16384x1, .f32⟩
  | .hbm, ⟨6, _⟩ => ⟨S16384x4096, .f32⟩
  | .hbm, ⟨7, _⟩ => ⟨S16384x4096, .f32⟩
  | .hbm, ⟨8, _⟩ => ⟨S16x1024x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  bcast_S16_S16x1024_0 : S16.BroadcastsInDim S16x1024 (![0] : Fin 1 → Fin S16x1024.rank)
  shapeCasts_S16x1024_S16384 : S16x1024.ShapeCasts S16384
  bcast_S_S16384x1 : S_.BroadcastsInDim S16384x1 (![] : Fin 0 → Fin S16384x1.rank)
  bcast_S16384x1_S16384x4096_0_1 : S16384x1.BroadcastsInDim S16384x4096 (![0, 1] : Fin 2 → Fin S16384x4096.rank)
  shapeCasts_S16384x4096_S16x1024x4096 : S16384x4096.ShapeCasts S16x1024x4096

variable [Facts₀]

class Facts : Prop extends Facts₀ where

variable [Facts]
-- ==== Proof.CopyRun.lean ====
/-
  The kernel's side of the value claim.

  The pallas_call tiles the [16384, 4096] argument by 32 row blocks of 512 rows. At grid point `t` the body loads the
  input window's whole block and stores it, unchanged, as the output window's whole block; both windows have the index
  map `t ↦ (t, 0)`, so what point `t` writes back is rows `512·t … 512·t + 511` of the argument itself. The 32 blocks
  tile the result's array (row `r` lies in block `r / 512`), hence after the region that array is the argument, entry
  by entry. The one host operation after the region reshapes it to [16, 1024, 4096].
-/
import proofs.«110460_j31980326486571_2_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.CopyRun

open Cert.KernelIdeal Cert.KernelIdeal.Gen

variable {F : FTy → Type} [FloatOps F]
variable (m : (ℓ : Loc nD τ sig) → Buf (Elt F) ℓ) (ρ : Dev nD → PrngReg)

/-- The body's one load and one store both start at the block's origin. -/
theorem origin : (![0, 0] : Fin 2 → Nat) = fun _ => 0 := funext fun a => by fin_cases a <;> rfl

/-- The two windows' index maps, decided over the 32 grid points: both send point `t` to block `(t, 0)`. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The argument as the region finds it, read as an array of the result window's type. -/
abbrev src (c : Dev nD) : S16384x4096.Idx → Elt F .f32 := V m c main_arg0

/-- What grid point `t` writes back is block `t` of the argument: the body stores the block it loaded, and the input's
    block `t` and the output's block `t` sit at the same rows and columns. -/
theorem written_back (c : Dev nD) (t : Fin cfg0.N) :
    (dats m 0 c).flushed 1 t = ((cfg0.win 1).blk t).view.read (Elt F) (src m c) := by
  show (cfg0.win 1).cut (grid0.coords t) ((dats m 0 c).after 1 t) = _
  rw [after0_1]
  unfold out0_1
  rw [View.canon_unit_zero origin]
  simp only [View.ld_unit_zero (S := S512x4096) origin]
  obtain ⟨e0, e1, e2, e3⟩ := block_index t
  funext j
  show V m c main_arg0 (((cfg0.win 0).blk t).view.emb j) = V m c main_arg0 (((cfg0.win 1).blk t).view.emb j)
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 4096 + 1 * (j 1).val = win0_1.index t (1 : Fin 2) * 4096 + 1 * (j 1).val; omega
  rw [h0]

/-- An entry of the result's array lies in point `t`'s block iff each coordinate lies in the block's range on its axis. -/
theorem mem_block (t : Fin cfg0.N) (i : S16384x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v0).slice (win0_1.rect t)).set ↔ _
  rw [View.set_slice_whole, Rect.mem_set_unit]
  exact Iff.rfl

/-- The 32 row blocks tile the array: row `r` lies in the block of point `r / 512`. -/
theorem tiled (i : S16384x4096.Idx) :
    ∃ t : Fin cfg0.N, (cfg0.win 1).flush t = true ∧ i ∈ ((cfg0.win 1).blk t).view.set := by
  have hi0 : (i 0).val < 16384 := (i 0).isLt
  have hi1 : (i 1).val < 4096 := (i 1).isLt
  have hN : cfg0.N = 32 := N_0
  let t : Fin cfg0.N := ⟨(i 0).val / 512, by rw [hN]; omega⟩
  have ht : t.val = (i 0).val / 512 := rfl
  obtain ⟨e0, e1, e2, e3⟩ := block_index t
  refine ⟨t, flush0_1 t, ?_⟩
  rw [mem_block]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- After the region the result window's array is the argument. -/
theorem copied (c : Dev nD) : (dats m 0 c).arrAt 1 cfg0.N = src m c :=
  (dats m 0 c).arrAt_eq_of_cover 1 (src m c) (fun t _ => written_back m c t) tiled

/-- The buffer of @main's result is no array of the pipeline and is not scoped: the frame run's post reads it through
    the host operation after the region. -/
theorem result_bypasses : main_v1 ∈ Pipeline.restRefs sig (cfgs 0).spec :=
  Pipeline.mem_restRefs_of main_v1 rfl (fun w => by fin_cases w <;> decide)

/-- What the host operation after the region leaves in @main's result: the argument, reshaped. -/
theorem tail_value (c : Dev nD) :
    Pipeline.afterTail₀ cfgs (dats m) 0 (V0 m) [hostOps1] c main_v1
      = shapeCast _ (m ((c : Thread nD τ).loc main_arg0)) shapeCasts_S16384x4096_S16x1024x4096 := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0)
      = m ((c : Thread nD τ).loc main_arg0) :=
    (Pipeline.withArrays_arr spec0 launch0.win.arr_inj c _ _ 1).trans ((copied m c).trans (V_main_arg0 m c))
  rw [e]
  rfl

/-- The kernel's run, read: @main's result ends at the argument reshaped to [16, 1024, 4096], and the argument ends
    unchanged (an input window's array is never written). -/
theorem run : θ_run defs (onTc (τ := τ) (main (F := F))) ⟨m, fun _ => 0, ρ⟩ fun r => ∀ c : Dev nD,
      r.2.mem ((c.tc : Thread nD τ).loc main_v1)
        = shapeCast _ (m ((c.tc : Thread nD τ).loc main_arg0)) shapeCasts_S16384x4096_S16x1024x4096
      ∧ r.2.mem ((c.tc : Thread nD τ).loc main_arg0) = m ((c.tc : Thread nD τ).loc main_arg0) :=
  (θ_run defs _ _).mono (fun _ h c => ⟨((h c).2 main_v1 result_bypasses).trans (tail_value m c),
      ((h c).1 0).trans (((dats m 0 c).arrAt_in 0 rfl _).trans ((A_eq m c 0).trans (V_main_arg0 m c)))⟩)
    (run_main m ρ)

end Cert.KernelIdeal.CopyRun

end
-- ==== Proof.UnitGate.lean ====
/-
  The reference's side of the value claim.

  The reference multiplies the argument, entry by entry, by a gate that is the constant 1.0 broadcast first to a
  [16384, 1] column and then along the columns to [16384, 4096], and reshapes the product to [16, 1024, 4096]. The
  word 0x3F800000 denotes the real number 1, and `x · 1 = x` for every extended real `x`, the two infinities
  included, so the product is the argument itself; no finiteness of the argument is used.
-/
import proofs.«110460_j31980326486571_2_alg».proof.Proof.Gen.ReferenceIdeal.Read
import Idealize.ShloMosaic.PureOps.Ideal

noncomputable section

open Idealize.ShloMosaic Idealize.ShloMosaic.TcCoe Idealize.SL.Sem

namespace Cert.ReferenceIdeal.UnitGate

open Cert.ReferenceIdeal Cert.ReferenceIdeal.Gen Cert.ReferenceIdeal.Read

/-- The single-precision word of `1.0` (sign 0, biased exponent 127, mantissa 0) denotes the real number 1. -/
theorem one_word : Ideal.ofBits .f32 0x3F800000#32 = 1 := by
  simp [Ideal.ofBits, Ideal.ieee, -EReal.coe_mul]; norm_num

/-- Every entry of the broadcast gate is 1: both broadcasts read the one scalar constant. -/
theorem gate_apply (i : S16384x4096.Idx) : val_main_v4 (F := Ideal) i = 1 := by
  rw [val_main_v4_apply, val_main_v3_apply, val_main_cst_apply, Ideal.ofBits_def, one_word]

/-- Multiplying the argument by the gate of ones leaves it as it is, at every entry of the extended reals. -/
theorem times_gate (x : FVec Ideal S16384x4096 .f32) :
    mulf x (broadcastInDim S16384x4096 ![0, 1] bcast_S16384x1_S16384x4096_0_1
      (broadcastInDim S16384x1 ![] bcast_S_S16384x1 (constant S_ .f32 0x3F800000#32))) = x := by
  funext i
  show val_main_v5 (F := Ideal) x i = x i
  rw [val_main_v5_apply, gate_apply, Ideal.mulf_def, mul_one]

end Cert.ReferenceIdeal.UnitGate

end
-- ==== Proof.lean ====
/-
  The certificate of the tiled copy against the gated reshape.

  The kernel copies the [16384, 4096] argument block by block (32 row blocks of 512 rows, each loaded and stored
  unchanged) and reshapes the copy to [16, 1024, 4096]; the reference multiplies the argument by a gate of ones and
  reshapes the product the same way. Over the extended reals `x · 1 = x` for every `x`, so both results are the
  argument read in row-major order as a [16, 1024, 4096] array. The precondition (finite inputs) is not used by the
  value claim. The ideal pass rewrote nothing, so the idealization is the kernel's own text read at the exact instance.
-/
import proofs.«110460_j31980326486571_2_alg».proof.Defs
import proofs.«110460_j31980326486571_2_alg».proof.Proof.Gen.Kernel
import proofs.«110460_j31980326486571_2_alg».proof.Proof.Gen.Kernel.Skeleton
import proofs.«110460_j31980326486571_2_alg».proof.Proof.Gen.Kernel.Launch
import proofs.«110460_j31980326486571_2_alg».proof.Proof.Gen.Kernel.Points
import proofs.«110460_j31980326486571_2_alg».proof.Proof.Gen.Kernel.Frame
import proofs.«110460_j31980326486571_2_alg».proof.Proof.Gen.KernelIdeal
import proofs.«110460_j31980326486571_2_alg».proof.Proof.Gen.KernelIdeal.Skeleton
import proofs.«110460_j31980326486571_2_alg».proof.Proof.Gen.KernelIdeal.Launch
import proofs.«110460_j31980326486571_2_alg».proof.Proof.Gen.KernelIdeal.Points
import proofs.«110460_j31980326486571_2_alg».proof.Proof.Gen.KernelIdeal.Frame
import proofs.«110460_j31980326486571_2_alg».proof.Proof.Gen.ReferenceIdeal
import proofs.«110460_j31980326486571_2_alg».proof.Proof.Gen.ReferenceIdeal.Run
import proofs.«110460_j31980326486571_2_alg».proof.Proof.Gen.ReferenceIdeal.Read
import proofs.«110460_j31980326486571_2_alg».proof.Proof.Gen.Pre_finite_inputs
import proofs.«110460_j31980326486571_2_alg».proof.Proof.CopyRun
import proofs.«110460_j31980326486571_2_alg».proof.Proof.UnitGate
import Idealize.ShloMosaic.Adequacy
import Idealize.ShloMosaic.Init

noncomputable section

namespace Cert.Proof

open Idealize.ShloMosaic Idealize.SL.Sem

/-- The word-level kernel runs, faults nowhere and leaves its argument as it was. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation: there is nothing to preserve. -/
theorem preserves : Cert.preserves_Kernel_KernelIdeal := trivial

/-- Both programs end with the argument reshaped to [16, 1024, 4096]: the kernel because its 32 blocks tile a verbatim
    copy, the reference because the gate it multiplies by is 1 at every entry. -/
theorem algebraic : Cert.algebraic_KernelIdeal_ReferenceIdeal := by
  intro m ρ m' ρ' _ hagree
  refine ⟨_, Cert.KernelIdeal.CopyRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact congrArg (fun y => shapeCast _ y Cert.ReferenceIdeal.Facts₀.shapeCasts_S16384x4096_S16x1024x4096)
    (Cert.ReferenceIdeal.UnitGate.times_gate _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
